-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v69)) (v1 : (c : Dev Cert.KernelIdeal.nD) → Buf (Elt Ideal) ((c.tc : Thread Cert.KernelIdeal.nD Cert.KernelIdeal.τ).loc Cert.KernelIdeal.main_v52)) (v2 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_v52) = v1 c
          ∧ r.2.mem ((c.tc : Thread Cert.KernelIdeal.nD Cert.KernelIdeal.τ).loc Cert.KernelIdeal.main_v50) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S2x6400000 : Shape := ⟨2, ![2, 6400000]⟩
abbrev S200000 : Shape := ⟨1, ![200000]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  reducesTo_S_S_d : S_.ReducesTo [] S_

variable [Facts]

def fn_part1 {F : FTy → Type} [FloatOps F] (main_arg6 : FVec F S_ .f32) (main_v12 : IVec S_ 1) (main_v15 : IVec S_ 1) : IVec S_ 1 :=
  let main_v16 : IVec S_ 1 := andi main_v12 main_v15
  let main_v17 : FVec F S_ .f32 := Host.absf main_arg6
  let main_cst_6 : FVec F S_ .f32 := constant S_ .f32 0x7F800000#32
  let main_v18 : IVec S_ 1 := cmpf .olt main_v17 main_cst_6
  let main_c_7 : IVec S_ 1 := constantI S_ 1 1#1
  let main_v19 : IVec S_ 1 := (fun x v => Host.reduce IntOp.andi x v reducesTo_S_S_d h_S_) main_v18 main_c_7
  let main_v20 : IVec S_ 1 := andi main_v16 main_v19
  main_v20

def fn {F : FTy → Type} [FloatOps F] (main_arg0 : FVec F S200000x256 .f32) (main_arg1 : FVec F S200000x256 .f32) (main_arg2 : IVec S2x6400000 32) (main_arg3 : IVec S200000 32) (main_arg4 : FVec F S_ .f32) (main_arg5 : FVec F S_ .f32) (main_arg6 : FVec F S_ .f32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S200000x256 .f32 := Host.absf main_arg1
  let main_cst_0 : FVec F S_ .f32 := constant S_ .f32 0x7F800000#32
  let main_v5 : FVec F S200000x256 .f32 := broadcastInDim S200000x256 ![] bcast_S_S200000x256 main_cst_0
  let main_v6 : IVec S200000x256 1 := cmpf .olt main_v4 main_v5
  let main_c_1 : IVec S_ 1 := constantI S_ 1 1#1
  let main_v7 : IVec S_ 1 := (fun x v => Host.reduce IntOp.andi x v reducesTo_S200000x256_S_d0_1 h_S_) main_v6 main_c_1
  let main_v8 : IVec S_ 1 := andi main_v3 main_v7
  let main_v9 : FVec F S_ .f32 := Host.absf main_arg4
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S_ .f32 := Host.absf main_arg5
  let main_cst_4 : FVec F S_ .f32 := constant S_ .f32 0x7F800000#32
  let main_v14 : IVec S_ 1 := cmpf .olt main_v13 main_cst_4
  let main_c_5 : IVec S_ 1 := constantI S_ 1 1#1
  let main_v15 : IVec S_ 1 := (fun x v => Host.reduce IntOp.andi x v reducesTo_S_S_d h_S_) main_v14 main_c_5
  fn_part1 (F := F) main_arg6 main_v12 main_v15
-- ==== Kernel.lean ====
abbrev S200000x256 : Shape := ⟨2, ![200000, 256]⟩
abbrev S2x6400000 : Shape := ⟨2, ![2, 6400000]⟩
abbrev S200000 : Shape := ⟨1, ![200000]⟩
abbrev S_ : Shape := ⟨0, ![]⟩
abbrev S512 : Shape := ⟨1, ![512]⟩
abbrev S200000x1 : Shape := ⟨2, ![200000, 1]⟩
abbrev S1x6400000 : Shape := ⟨2, ![1, 6400000]⟩
abbrev S6400000 : Shape := ⟨1, ![6400000]⟩
abbrev S6400000x1 : Shape := ⟨2, ![6400000, 1]⟩
abbrev S5000x1 : Shape := ⟨2, ![5000, 1]⟩
abbrev S5000x256 : Shape := ⟨2, ![5000, 256]⟩

abbrev nBuf : Space → Nat
  | .hbm => 95
  | .vmem => 10
  | .smem => 0
  | _ => 0

abbrev bufTy : (tb : Table) → Fin (tcTables nBuf tb) → BufTy
  | .hbm, ⟨0, _⟩ => ⟨S200000x256, .f32⟩
  | .hbm, ⟨1, _⟩ => ⟨S200000x256, .f32⟩
  | .hbm, ⟨2, _⟩ => ⟨S2x6400000, .i32⟩
  | .hbm, ⟨3, _⟩ => ⟨S200000, .i32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S200000, .f32⟩
  | .hbm, ⟨9, _⟩ => ⟨S_, .f32⟩
  | .hbm, ⟨10, _⟩ => ⟨S512, .f32⟩
  | .hbm, ⟨11, _⟩ => ⟨S200000x1, .i32⟩
  | .hbm, ⟨12, _⟩ => ⟨S512, .f32⟩
  | .hbm, ⟨13, _⟩ => ⟨S1x6400000, .i32⟩
  | .hbm, ⟨14, _⟩ => ⟨S6400000, .i32⟩
  | .hbm, ⟨15, _⟩ => ⟨S1x6400000, .i32⟩
  | .hbm, ⟨16, _⟩ => ⟨S6400000, .i32⟩
  | .hbm, ⟨17, _⟩ => ⟨S_, .i32⟩
  | .hbm, ⟨18, _⟩ => ⟨S6400000, .i32⟩
  | .hbm, ⟨19, _⟩ => ⟨S6400000, .i1⟩
  | .hbm, ⟨20, _⟩ => ⟨S_, .i32⟩
  | .hbm, ⟨21, _⟩ => ⟨S6400000, .i32⟩
  | .hbm, ⟨22, _⟩ => ⟨S6400000, .i32⟩
  | .hbm, ⟨23, _⟩ => ⟨S6400000, .i32⟩
  | .hbm, ⟨24, _⟩ => ⟨S6400000x1, .i32⟩
  | .hbm, ⟨25, _⟩ => ⟨S6400000, .i32⟩
  | .hbm, ⟨26, _⟩ => ⟨S_, .i32⟩
  | .hbm, ⟨27, _⟩ => ⟨S6400000, .i32⟩
  | .hbm, ⟨28, _⟩ => ⟨S6400000, .i1⟩
  | .hbm, ⟨29, _⟩ => ⟨S_, .i32⟩
  | .hbm, ⟨30, _⟩ => ⟨S6400000, .i32⟩
  | .hbm, ⟨31, _⟩ => ⟨S6400000, .i32⟩
  | .hbm, ⟨32, _⟩ => ⟨S6400000, .i32⟩
  | .hbm, ⟨33, _⟩ => ⟨S6400000x1, .i32⟩
  | .hbm, ⟨34, _⟩ => ⟨S6400000, .i32⟩
  | .hbm, ⟨35, _⟩ => ⟨S6400000, .i1⟩
  | .hbm, ⟨36, _⟩ => ⟨S6400000, .f32⟩
  | .hbm, ⟨37, _⟩ => ⟨S_, .f32⟩
  | .hbm, ⟨38, _⟩ => ⟨S512, .f32⟩
  | .hbm, ⟨39, _⟩ => ⟨S6400000x1, .i32⟩
  | .hbm, ⟨40, _⟩ => ⟨S512, .f32⟩
  | .hbm, ⟨41, _⟩ => ⟨S_, .f32⟩
  | .hbm, ⟨42, _⟩ => ⟨S512, .f32⟩
  | .hbm, ⟨43, _⟩ => ⟨S512, .f32⟩
  | .hbm, ⟨44, _⟩ => ⟨S512, .f32⟩
  | .hbm, ⟨45, _⟩ => ⟨S_, .f32⟩
  | .hbm, ⟨46, _⟩ => ⟨S512, .f32⟩
  | .hbm, ⟨47, _⟩ => ⟨S512, .f32⟩
  | .hbm, ⟨48, _⟩ => ⟨S_, .f32⟩
  | .hbm, ⟨49, _⟩ => ⟨S512, .f32⟩
  | .hbm, ⟨50, _⟩ => ⟨S512, .f32⟩
  | .hbm, ⟨51, _⟩ => ⟨S512, .f32⟩
  | .hbm, ⟨52, _⟩ => ⟨S_, .f32⟩
  | .hbm, ⟨53, _⟩ => ⟨S512, .f32⟩
  | .hbm, ⟨54, _⟩ => ⟨S512, .f32⟩
  | .hbm, ⟨55, _⟩ => ⟨S512, .f32⟩
  | .hbm, ⟨56, _⟩ => ⟨S512, .f32⟩
  | .hbm, ⟨57, _⟩ => ⟨S512, .f32⟩
  | .hbm, ⟨58, _⟩ => ⟨S512, .f32⟩
  | .hbm, ⟨59, _⟩ => ⟨S512, .f32⟩
  | .hbm, ⟨60, _⟩ => ⟨S512, .f32⟩
  | .hbm, ⟨61, _⟩ => ⟨S512, .f32⟩
  | .hbm, ⟨62, _⟩ => ⟨S512, .f32⟩
  | .hbm, ⟨63, _⟩ => ⟨S512, .f32⟩
  | .hbm, ⟨64, _⟩ => ⟨S512, .f32⟩
  | .hbm, ⟨65, _⟩ => ⟨S_, .f32⟩
  | .hbm, ⟨66, _⟩ => ⟨S512, .f32⟩
  | .hbm, ⟨67, _⟩ => ⟨S512, .f32⟩
  | .hbm, ⟨68, _⟩ => ⟨S_, .f32⟩
  | .hbm, ⟨69, _⟩ => ⟨S512, .f32⟩
  | .hbm, ⟨70, _⟩ => ⟨S512, .f32⟩
  | .hbm, ⟨71, _⟩ => ⟨S_, .f32⟩
  | .hbm, ⟨72, _⟩ => ⟨S512, .f32⟩
  | .hbm, ⟨73, _⟩ => ⟨S512, .f32⟩
  | .hbm, ⟨74, _⟩ => ⟨S_, .i32⟩
  | .hbm, ⟨75, _⟩ => ⟨S200000, .i32⟩
  | .hbm, ⟨76, _⟩ => ⟨S200000, .i1⟩
  | .hbm, ⟨77, _⟩ => ⟨S_, .i32⟩
  | .hbm, ⟨78, _⟩ => ⟨S200000, .i32⟩
  | .hbm, ⟨79, _⟩ => ⟨S200000, .i32⟩
  | .hbm, ⟨80, _⟩ => ⟨S200000, .i32⟩
  | .hbm, ⟨81, _⟩ => ⟨S200000x1, .i32⟩
  | .hbm, ⟨82, _⟩ => ⟨S200000, .f32⟩
  | .hbm, ⟨83, _⟩ => ⟨S200000x1, .f32⟩
  | .hbm, ⟨84, _⟩ => ⟨S_, .i32⟩
  | .hbm, ⟨85, _⟩ => ⟨S200000, .i32⟩
  | .hbm, ⟨86, _⟩ => ⟨S200000, .i1⟩
  | .hbm, ⟨87, _⟩ => ⟨S_, .i32⟩
  | .hbm, ⟨88, _⟩ => ⟨S200000, .i32⟩
  | .hbm, ⟨89, _⟩ => ⟨S200000, .i32⟩
  | .hbm, ⟨90, _⟩ => ⟨S200000, .i32⟩
  | .hbm, ⟨91, _⟩ => ⟨S200000x1, .i32⟩
  | .hbm, ⟨92, _⟩ => ⟨S200000, .f32⟩
  | .hbm, ⟨93, _⟩ => ⟨S200000x1, .f32⟩
  | .hbm, ⟨94, _⟩ => ⟨S200000x256, .f32⟩
  | .local _ .vmem, ⟨0, _⟩ => ⟨S5000x1, .f32⟩
  | .local _ .vmem, ⟨1, _⟩ => ⟨S5000x1, .f32⟩
  | .local _ .vmem, ⟨2, _⟩ => ⟨S5000x1, .f32⟩
  | .local _ .vmem, ⟨3, _⟩ => ⟨S5000x1, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S5000x256, .f32⟩
  | .local _ .vmem, ⟨9, _⟩ => ⟨S5000x256, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_8 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_v50 : Ref sig .tc := ⟨.hbm, 70, rfl⟩
abbrev main_cst_11 : Ref sig .tc := ⟨.hbm, 71, rfl⟩
abbrev main_v51 : Ref sig .tc := ⟨.hbm, 72, rfl⟩
abbrev main_v52 : Ref sig .tc := ⟨.hbm, 73, rfl⟩
abbrev main_c_12 : Ref sig .tc := ⟨.hbm, 74, rfl⟩
abbrev main_v53 : Ref sig .tc := ⟨.hbm, 75, rfl⟩
abbrev main_v54 : Ref sig .tc := ⟨.hbm, 76, rfl⟩
abbrev main_c_13 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_14 : Ref sig .tc := ⟨.hbm, 84, rfl⟩
abbrev main_v61 : Ref sig .tc := ⟨.hbm, 85, rfl⟩
abbrev main_v62 : Ref sig .tc := ⟨.hbm, 86, rfl⟩
abbrev main_c_15 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S200000 : S_.BroadcastsInDim S200000 (![] : Fin 0 → Fin S200000.rank)
  bcast_S_S512 : S_.BroadcastsInDim S512 (![] : Fin 0 → Fin S512.rank)
  bcast_S200000_S200000x1_0 : S200000.BroadcastsInDim S200000x1 (![0] : Fin 1 → Fin S200000x1.rank)
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  shapeCasts_S200000_S200000x1 : S200000.ShapeCasts S200000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x256_S5000x256_0_0 : ∀ a, (![0, 0] : Fin 2 → Nat) a + S5000x256.size a ≤ S5000x256.size a
  h_S5000x256 : 0 < S5000x256.numel
  broadcasts_S5000x1_S5000x256 : S5000x1.Broadcasts S5000x256
  scatter_S512_S200000x1_S200000_n_0_0_1_wf : ScatterDims.WF S512 S200000x1 S200000 [] [0] [0] 1
  gather_S200000_S6400000x1_S6400000_n_0_n_n_0_1_1_wf : GatherDims.WF S200000 S6400000x1 S6400000 [] [0] [] [0] [] 1 ![1]
  scatter_S512_S6400000x1_S6400000_n_0_0_1_wf : ScatterDims.WF S512 S6400000x1 S6400000 [] [0] [0] 1
  gather_S512_S200000x1_S200000_n_0_n_n_0_1_1_wf : GatherDims.WF S512 S200000x1 S200000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S200000x1.size a
  hwx0_0 : ∀ i : grid0.Coords, EltTy.bits .f32 = 32 ∨ (Rect.block (s := S200000x1) S5000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S200000x1.size a
  hwx0_1 : ∀ i : grid0.Coords, EltTy.bits .f32 = 32 ∨ (Rect.block (s := S200000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S200000x256.size a
  hwx0_2 : ∀ i : grid0.Coords, EltTy.bits .f32 = 32 ∨ (Rect.block (s := S200000x256) S5000x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S200000x256.size a
  hwx0_3 : ∀ i : grid0.Coords, EltTy.bits .f32 = 32 ∨ (Rect.block (s := S200000x256) S5000x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x256.size a ≤ S200000x256.size a
  hwx0_4 : ∀ i : grid0.Coords, EltTy.bits .f32 = 32 ∨ (Rect.block (s := S200000x256) S5000x256.size (cc0_transform_4 i) (hinb0_4 i)).WholeWords (EltTy.packing .f32)

variable [Facts₀]

def scatter_S512_S200000x1_S200000_n_0_0_1 : ScatterDims S512 S200000x1 S200000 where
  updateWindowDims := []
  insertedWindowDims := [0]
  scatterDimsToOperandDims := [0]
  indexVectorDim := 1
  wf := scatter_S512_S200000x1_S200000_n_0_0_1_wf
def gather_S200000_S6400000x1_S6400000_n_0_n_n_0_1_1 : GatherDims S200000 S6400000x1 S6400000 where
  offsetDims := []
  collapsedSliceDims := [0]
  operandBatchingDims := []
  startIndicesBatchingDims := []
  startIndexMap := [0]
  indexVectorDim := 1
  sliceSizes := ![1]
  wf := gather_S200000_S6400000x1_S6400000_n_0_n_n_0_1_1_wf
def scatter_S512_S6400000x1_S6400000_n_0_0_1 : ScatterDims S512 S6400000x1 S6400000 where
  updateWindowDims := []
  insertedWindowDims := [0]
  scatterDimsToOperandDims := [0]
  indexVectorDim := 1
  wf := scatter_S512_S6400000x1_S6400000_n_0_0_1_wf
def gather_S512_S200000x1_S200000_n_0_n_n_0_1_1 : GatherDims S512 S200000x1 S200000 where
  offsetDims := []
  collapsedSliceDims := [0]
  operandBatchingDims := []
  startIndicesBatchingDims := []
  startIndexMap := [0]
  indexVectorDim := 1
  sliceSizes := ![1]
  wf := gather_S512_S200000x1_S200000_n_0_n_n_0_1_1_wf

abbrev win0_0 : Pipeline.Window sig grid0 :=
  Pipeline.Window.ofSpec (Memref.whole main_v60) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v68) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S5000x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v69) S5000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S200000x256 : Shape := ⟨2, ![200000, 256]⟩
abbrev S2x6400000 : Shape := ⟨2, ![2, 6400000]⟩
abbrev S200000 : Shape := ⟨1, ![200000]⟩
abbrev S_ : Shape := ⟨0, ![]⟩
abbrev S512 : Shape := ⟨1, ![512]⟩
abbrev S200000x1 : Shape := ⟨2, ![200000, 1]⟩
abbrev S1x6400000 : Shape := ⟨2, ![1, 6400000]⟩
abbrev S6400000 : Shape := ⟨1, ![6400000]⟩
abbrev S6400000x1 : Shape := ⟨2, ![6400000, 1]⟩

abbrev nBuf : Space → Nat
  | .hbm => 99
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S200000x256, .f32⟩
  | .hbm, ⟨2, _⟩ => ⟨S2x6400000, .i32⟩
  | .hbm, ⟨3, _⟩ => ⟨S200000, .i32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S200000, .f32⟩
  | .hbm, ⟨9, _⟩ => ⟨S_, .f32⟩
  | .hbm, ⟨10, _⟩ => ⟨S512, .f32⟩
  | .hbm, ⟨11, _⟩ => ⟨S200000x1, .i32⟩
  | .hbm, ⟨12, _⟩ => ⟨S512, .f32⟩
  | .hbm, ⟨13, _⟩ => ⟨S1x6400000, .i32⟩
  | .hbm, ⟨14, _⟩ => ⟨S6400000, .i32⟩
  | .hbm, ⟨15, _⟩ => ⟨S_, .i32⟩
  | .hbm, ⟨16, _⟩ => ⟨S6400000, .i32⟩
  | .hbm, ⟨17, _⟩ => ⟨S6400000, .i1⟩
  | .hbm, ⟨18, _⟩ => ⟨S_, .i32⟩
  | .hbm, ⟨19, _⟩ => ⟨S6400000, .i32⟩
  | .hbm, ⟨20, _⟩ => ⟨S6400000, .i32⟩
  | .hbm, ⟨21, _⟩ => ⟨S6400000, .i32⟩
  | .hbm, ⟨22, _⟩ => ⟨S6400000x1, .i32⟩
  | .hbm, ⟨23, _⟩ => ⟨S6400000, .i32⟩
  | .hbm, ⟨24, _⟩ => ⟨S1x6400000, .i32⟩
  | .hbm, ⟨25, _⟩ => ⟨S6400000, .i32⟩
  | .hbm, ⟨26, _⟩ => ⟨S_, .i32⟩
  | .hbm, ⟨27, _⟩ => ⟨S6400000, .i32⟩
  | .hbm, ⟨28, _⟩ => ⟨S6400000, .i1⟩
  | .hbm, ⟨29, _⟩ => ⟨S_, .i32⟩
  | .hbm, ⟨30, _⟩ => ⟨S6400000, .i32⟩
  | .hbm, ⟨31, _⟩ => ⟨S6400000, .i32⟩
  | .hbm, ⟨32, _⟩ => ⟨S6400000, .i32⟩
  | .hbm, ⟨33, _⟩ => ⟨S6400000x1, .i32⟩
  | .hbm, ⟨34, _⟩ => ⟨S6400000, .i32⟩
  | .hbm, ⟨35, _⟩ => ⟨S6400000, .i1⟩
  | .hbm, ⟨36, _⟩ => ⟨S6400000, .f32⟩
  | .hbm, ⟨37, _⟩ => ⟨S_, .f32⟩
  | .hbm, ⟨38, _⟩ => ⟨S512, .f32⟩
  | .hbm, ⟨39, _⟩ => ⟨S6400000x1, .i32⟩
  | .hbm, ⟨40, _⟩ => ⟨S512, .f32⟩
  | .hbm, ⟨41, _⟩ => ⟨S_, .f32⟩
  | .hbm, ⟨42, _⟩ => ⟨S512, .f32⟩
  | .hbm, ⟨43, _⟩ => ⟨S512, .f32⟩
  | .hbm, ⟨44, _⟩ => ⟨S512, .f32⟩
  | .hbm, ⟨45, _⟩ => ⟨S_, .f32⟩
  | .hbm, ⟨46, _⟩ => ⟨S512, .f32⟩
  | .hbm, ⟨47, _⟩ => ⟨S512, .f32⟩
  | .hbm, ⟨48, _⟩ => ⟨S_, .f32⟩
  | .hbm, ⟨49, _⟩ => ⟨S512, .f32⟩
  | .hbm, ⟨50, _⟩ => ⟨S512, .f32⟩
  | .hbm, ⟨51, _⟩ => ⟨S512, .f32⟩
  | .hbm, ⟨52, _⟩ => ⟨S_, .f32⟩
  | .hbm, ⟨53, _⟩ => ⟨S512, .f32⟩
  | .hbm, ⟨54, _⟩ => ⟨S512, .f32⟩
  | .hbm, ⟨55, _⟩ => ⟨S512, .f32⟩
  | .hbm, ⟨56, _⟩ => ⟨S512, .f32⟩
  | .hbm, ⟨57, _⟩ => ⟨S512, .f32⟩
  | .hbm, ⟨58, _⟩ => ⟨S512, .f32⟩
  | .hbm, ⟨59, _⟩ => ⟨S512, .f32⟩
  | .hbm, ⟨60, _⟩ => ⟨S512, .f32⟩
  | .hbm, ⟨61, _⟩ => ⟨S512, .f32⟩
  | .hbm, ⟨62, _⟩ => ⟨S512, .f32⟩
  | .hbm, ⟨63, _⟩ => ⟨S512, .f32⟩
  | .hbm, ⟨64, _⟩ => ⟨S512, .f32⟩
  | .hbm, ⟨65, _⟩ => ⟨S_, .f32⟩
  | .hbm, ⟨66, _⟩ => ⟨S512, .f32⟩
  | .hbm, ⟨67, _⟩ => ⟨S512, .f32⟩
  | .hbm, ⟨68, _⟩ => ⟨S_, .f32⟩
  | .hbm, ⟨69, _⟩ => ⟨S512, .f32⟩
  | .hbm, ⟨70, _⟩ => ⟨S512, .f32⟩
  | .hbm, ⟨71, _⟩ => ⟨S_, .f32⟩
  | .hbm, ⟨72, _⟩ => ⟨S512, .f32⟩
  | .hbm, ⟨73, _⟩ => ⟨S512, .f32⟩
  | .hbm, ⟨74, _⟩ => ⟨S_, .i32⟩
  | .hbm, ⟨75, _⟩ => ⟨S200000, .i32⟩
  | .hbm, ⟨76, _⟩ => ⟨S200000, .i1⟩
  | .hbm, ⟨77, _⟩ => ⟨S_, .i32⟩
  | .hbm, ⟨78, _⟩ => ⟨S200000, .i32⟩
  | .hbm, ⟨79, _⟩ => ⟨S200000, .i32⟩
  | .hbm, ⟨80, _⟩ => ⟨S200000, .i32⟩
  | .hbm, ⟨81, _⟩ => ⟨S200000x1, .i32⟩
  | .hbm, ⟨82, _⟩ => ⟨S200000, .f32⟩
  | .hbm, ⟨83, _⟩ => ⟨S200000x1, .f32⟩
  | .hbm, ⟨84, _⟩ => ⟨S200000x256, .f32⟩
  | .hbm, ⟨85, _⟩ => ⟨S200000x256, .f32⟩
  | .hbm, ⟨86, _⟩ => ⟨S_, .i32⟩
  | .hbm, ⟨87, _⟩ => ⟨S200000, .i32⟩
  | .hbm, ⟨88, _⟩ => ⟨S200000, .i1⟩
  | .hbm, ⟨89, _⟩ => ⟨S_, .i32⟩
  | .hbm, ⟨90, _⟩ => ⟨S200000, .i32⟩
  | .hbm, ⟨91, _⟩ => ⟨S200000, .i32⟩
  | .hbm, ⟨92, _⟩ => ⟨S200000, .i32⟩
  | .hbm, ⟨93, _⟩ => ⟨S200000x1, .i32⟩
  | .hbm, ⟨94, _⟩ => ⟨S200000, .f32⟩
  | .hbm, ⟨95, _⟩ => ⟨S200000x1, .f32⟩
  | .hbm, ⟨96, _⟩ => ⟨S200000x256, .f32⟩
  | .hbm, ⟨97, _⟩ => ⟨S200000x256, .f32⟩
  | .hbm, ⟨98, _⟩ => ⟨S200000x256, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_8 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_v50 : Ref sig .tc := ⟨.hbm, 70, rfl⟩
abbrev main_cst_11 : Ref sig .tc := ⟨.hbm, 71, rfl⟩
abbrev main_v51 : Ref sig .tc := ⟨.hbm, 72, rfl⟩
abbrev main_v52 : Ref sig .tc := ⟨.hbm, 73, rfl⟩
abbrev main_c_12 : Ref sig .tc := ⟨.hbm, 74, rfl⟩
abbrev main_v53 : Ref sig .tc := ⟨.hbm, 75, rfl⟩
abbrev main_v54 : Ref sig .tc := ⟨.hbm, 76, rfl⟩
abbrev main_c_13 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c_14 : Ref sig .tc := ⟨.hbm, 86, rfl⟩
abbrev main_v63 : Ref sig .tc := ⟨.hbm, 87, rfl⟩
abbrev main_v64 : Ref sig .tc := ⟨.hbm, 88, rfl⟩
abbrev main_c_15 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S_S512 : S_.BroadcastsInDim S512 (![] : Fin 0 → Fin S512.rank)
  bcast_S200000_S200000x1_0 : S200000.BroadcastsInDim S200000x1 (![0] : Fin 1 → Fin S200000x1.rank)
  slices_S2x6400000_S1x6400000_0_0 : S2x6400000.Slices ![0, 0] S1x6400000
  shapeCasts_S1x6400000_S6400000 : S1x6400000.ShapeCasts S6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  slices_S2x6400000_S1x6400000_1_0 : S2x6400000.Slices ![1, 0] S1x6400000
  bcast_S200000x1_S200000x256_0_1 : S200000x1.BroadcastsInDim S200000x256 (![0, 1] : Fin 2 → Fin S200000x256.rank)
  scatter_S512_S200000x1_S200000_n_0_0_1_wf : ScatterDims.WF S512 S200000x1 S200000 [] [0] [0] 1
  gather_S200000_S6400000x1_S6400000_n_0_n_n_0_1_1_wf : GatherDims.WF S200000 S6400000x1 S6400000 [] [0] [] [0] [] 1 ![1]
  scatter_S512_S6400000x1_S6400000_n_0_0_1_wf : ScatterDims.WF S512 S6400000x1 S6400000 [] [0] [0] 1
  gather_S512_S200000x1_S200000_n_0_n_n_0_1_1_wf : GatherDims.WF S512 S200000x1 S200000 [] [0] [] [0] [] 1 ![1]

variable [Facts₀]

def scatter_S512_S200000x1_S200000_n_0_0_1 : ScatterDims S512 S200000x1 S200000 where
  updateWindowDims := []
  insertedWindowDims := [0]
  scatterDimsToOperandDims := [0]
  indexVectorDim := 1
  wf := scatter_S512_S200000x1_S200000_n_0_0_1_wf
def gather_S200000_S6400000x1_S6400000_n_0_n_n_0_1_1 : GatherDims S200000 S6400000x1 S6400000 where
  offsetDims := []
  collapsedSliceDims := [0]
  operandBatchingDims := []
  startIndicesBatchingDims := []
  startIndexMap := [0]
  indexVectorDim := 1
  sliceSizes := ![1]
  wf := gather_S200000_S6400000x1_S6400000_n_0_n_n_0_1_1_wf
def scatter_S512_S6400000x1_S6400000_n_0_0_1 : ScatterDims S512 S6400000x1 S6400000 where
  updateWindowDims := []
  insertedWindowDims := [0]
  scatterDimsToOperandDims := [0]
  indexVectorDim := 1
  wf := scatter_S512_S6400000x1_S6400000_n_0_0_1_wf
def gather_S512_S200000x1_S200000_n_0_n_n_0_1_1 : GatherDims S512 S200000x1 S200000 where
  offsetDims := []
  collapsedSliceDims := [0]
  operandBatchingDims := []
  startIndicesBatchingDims := []
  startIndexMap := [0]
  indexVectorDim := 1
  sliceSizes := ![1]
  wf := gather_S512_S200000x1_S200000_n_0_n_n_0_1_1_wf

class Facts : Prop extends Facts₀ where

variable [Facts]
-- ==== Proof.Spec.lean ====
/-
  What the fused node features are, stated once, away from both programs.

  Every node `p` (a row of the two feature arrays) carries two weights, `wl p` and `wg p`. The fused features are
  row by row the weighted sum of the two feature arrays:

      fused wl wg x xa (p, q) = wl p · x (p, q) + wg p · xa (p, q)        on the extended reals.

  Nothing here needs the weights or the features to be finite: the two programs compute this very expression, with
  the same products and the same sum, so no law of the extended reals beyond equality of the operands is used.

  The kernel receives the weights as one-column arrays [200000, 1] (a cast of the weight vector); `colFused` is the
  same expression over such columns, and `colFused_column` says a column that is the cast of a vector gives `fused`
  of that vector.
-/
import Idealize.ShloMosaic.PureOps.Ideal
import Idealize.ShloMosaic.Lib.ValueIdx
import Idealize.ShloMosaic.Lib.Pipeline.Value

noncomputable section

namespace Cert.Fuse

open Idealize.ShloMosaic Idealize.ShloMosaic.ValueIdx

/-- The row of a feature index, as a node number. -/
abbrev row (i : (⟨2, ![200000, 256]⟩ : Shape).Idx) : Fin 200000 := ⟨(i 0).val, idx2_lt0 i⟩

/-- Row `p` of `x` scaled by `wl p` plus row `p` of `xa` scaled by `wg p`. -/
def fused (wl wg : (⟨1, ![200000]⟩ : Shape).Idx → EReal) (x xa : (⟨2, ![200000, 256]⟩ : Shape).Idx → EReal) :
    (⟨2, ![200000, 256]⟩ : Shape).Idx → EReal :=
  fun i => wl (ix1 (row i)) * x i + wg (ix1 (row i)) * xa i

theorem fused_apply (wl wg : (⟨1, ![200000]⟩ : Shape).Idx → EReal) (x xa : (⟨2, ![200000, 256]⟩ : Shape).Idx → EReal)
    (p : Fin 200000) (q : Fin 256) :
    fused wl wg x xa (ix2 p q) = wl (ix1 p) * x (ix2 p q) + wg (ix1 p) * xa (ix2 p q) := rfl

/-- The same weighted sum with the weights given as one-column arrays: row `p` uses the entry `(p, 0)`. -/
def colFused (w0 w1 : (⟨2, ![200000, 1]⟩ : Shape).Idx → EReal) (x xa : (⟨2, ![200000, 256]⟩ : Shape).Idx → EReal) :
    (⟨2, ![200000, 256]⟩ : Shape).Idx → EReal :=
  fun i => w0 (ix2 (row i) (0 : Fin 1)) * x i + w1 (ix2 (row i) (0 : Fin 1)) * xa i

/-- A vector of length `a` cast to one column [a, 1], read at `(p, z)`, is the vector at `p`: the two indices have
    the same row-major position `p`. -/
theorem column_apply {α : Type} {a : Nat} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) :=
  shapeCast_apply v h (ix2 p z) (ix1 p) (by
    rw [Shape.rowMajor_val_one, Shape.rowMajor_val_two]
    show p.val = p.val * 1 + z.val
    have := z.isLt
    omega)

/-- Columns that are casts of weight vectors give the weighted sum of those vectors. -/
theorem colFused_column (wl wg : (⟨1, ![200000]⟩ : Shape).Idx → EReal)
    (hl hg : (⟨1, ![200000]⟩ : Shape).ShapeCasts ⟨2, ![200000, 1]⟩)
    (x xa : (⟨2, ![200000, 256]⟩ : Shape).Idx → EReal) :
    colFused (shapeCast ⟨2, ![200000, 1]⟩ wl hl) (shapeCast ⟨2, ![200000, 1]⟩ wg hg) x xa = fused wl wg x xa := by
  funext i
  show shapeCast ⟨2, ![200000, 1]⟩ wl hl (ix2 (row i) (0 : Fin 1)) * x i
      + shapeCast ⟨2, ![200000, 1]⟩ wg hg (ix2 (row i) (0 : Fin 1)) * xa i
    = wl (ix1 (row i)) * x i + wg (ix1 (row i)) * xa i
  rw [column_apply wl hl, column_apply wg hg]

end Cert.Fuse

end
-- ==== Proof.RefRead.lean ====
/-
  The reference's first result, index by index.

  After computing the two weight vectors of the 512 graphs, the reference gathers each node's weights along its graph
  id (two vectors of length 200000), repeats each across the 256 feature columns (a vector becomes a column, the
  column is broadcast along the rows), multiplies with the two feature arrays and adds. Read at `(p, q)` the two
  broadcasts return the gathered vectors at `p`, so the result is the weighted sum of the specification with the
  gathered vectors as the weights. The gathers themselves are not opened.
-/
import proofs.«141034_j18631568130348_1_alg».proof.Proof.Gen.ReferenceIdeal.Read
import proofs.«141034_j18631568130348_1_alg».proof.Proof.Spec

noncomputable section

namespace Cert.Fuse.Ref

open Idealize.ShloMosaic Idealize.ShloMosaic.TcCoe Idealize.ShloMosaic.ValueIdx
open Cert.ReferenceIdeal Cert.ReferenceIdeal.Read

/-- The reference's fused features are the weighted sum, the weights being its two gathered vectors. -/
theorem fused_eq (x0 x1 : (⟨S200000x256, .f32⟩ : BufTy).Contents (Elt Ideal)) (x2 : (⟨S2x6400000, .i32⟩ : BufTy).Contents (Elt Ideal)) (x3 : (⟨S200000, .i32⟩ : BufTy).Contents (Elt Ideal)) (x4 x5 x6 : (⟨S_, .f32⟩ : BufTy).Contents (Elt Ideal)) :
    val_main_v73 (F := Ideal) x0 x1 x2 x3 x4 x5 x6
      = Cert.Fuse.fused (val_main_v59 (F := Ideal) x2 x3 x4 x5 x6) (val_main_v69 (F := Ideal) x2 x3 x4 x5 x6) x0 x1 := by
  funext i
  obtain ⟨p, q, rfl⟩ : ∃ (p : Fin 200000) (q : Fin 256), i = ix2 p q := ⟨i 0, i 1, eq_ix2 i⟩
  have el : idx_main_v60 (idx_main_v61 (ix2 p q)) = ix1 p :=
    funext fun a => Fin.ext (by match a with | ⟨0, _⟩ => rfl)
  have eg : idx_main_v70 (idx_main_v71 (ix2 p q)) = ix1 p :=
    funext fun a => Fin.ext (by match a with | ⟨0, _⟩ => rfl)
  rw [val_main_v73_apply, val_main_v62_apply, val_main_v72_apply, val_main_v61_apply, val_main_v71_apply,
    val_main_v60_apply, val_main_v70_apply, el, eg, Cert.Fuse.fused_apply]
  rfl

end Cert.Fuse.Ref

end
-- ==== Proof.KernelValue.lean ====
/-
  What the kernel's one region leaves in its output array.

  The region walks 40 grid points; point `t` works on rows `5000 t … 5000 t + 4999`: it is handed those rows of the two
  weight columns (blocks [5000, 1]) and of the two feature arrays (blocks [5000, 256]), and writes the same rows of the
  output. Its body repeats each weight down its row and stores `wl · x + wg · xa`. So every point writes the block of
  ONE function of the whole arrays — the weighted sum `colFused` of the specification over the weight columns as the
  region finds them — and the 40 blocks tile the 200000 rows: the output array ends holding that function.
-/
import proofs.«141034_j18631568130348_1_alg».proof.Proof.Gen.KernelIdeal.Value
import proofs.«141034_j18631568130348_1_alg».proof.Proof.Spec

noncomputable section

namespace Cert.Fuse.Kernel

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offset : (![0, 0] : Fin 2 → Nat) = fun _ => 0 := funext fun a => by fin_cases a <;> rfl

/-- What the body leaves in the output block, entry by entry, for any four input blocks: the weight of the entry's
    row (column 0 of the weight block) times the feature, the two products added. -/
theorem out_at (x0 x1 : Vec Ideal S5000x1 .f32) (x2 x3 : Vec Ideal S5000x256 .f32) (y : S5000x256.Idx) :
    out0_4 x0 x1 x2 x3 y = x0 (Value.ix4_0 y) * x2 y + x1 (Value.ix4_2 y) * x3 y := by
  unfold out0_4
  rw [Value.canon4_eq]
  simp only [View.ld_unit_zero (S := S5000x1) zero_offset, View.ld_unit_zero (S := S5000x256) zero_offset]
  have e1 : Value.ix4_1 y = y := funext fun a => Fin.ext (by match a with | ⟨0, _⟩ => rfl | ⟨1, _⟩ => rfl)
  have e3 : Value.ix4_3 y = y := funext fun a => Fin.ext (by match a with | ⟨0, _⟩ => rfl | ⟨1, _⟩ => rfl)
  show x0 (Value.ix4_0 y) * x2 (Value.ix4_1 y) + x1 (Value.ix4_2 y) * x3 (Value.ix4_3 y) = _
  rw [e1, e3]

/-- A block of the weighted sum, entry by entry: if the four input blocks sit in their arrays at the rows of the output
    block (the weight blocks in column 0), the body's entry is the weighted sum's entry at the output's index. -/
theorem block_eq (w0 w1 : S200000x1.Idx → EReal) (x xa : S200000x256.Idx → EReal)
    (e0 e1 : S5000x1.Idx → S200000x1.Idx) (e2 e3 e4 : S5000x256.Idx → S200000x256.Idx) (j : S5000x256.Idx)
    (h0 : e0 (Value.ix4_0 j) = ix2 (Cert.Fuse.row (e4 j)) (0 : Fin 1))
    (h1 : e1 (Value.ix4_2 j) = ix2 (Cert.Fuse.row (e4 j)) (0 : Fin 1))
    (h2 : e2 j = e4 j) (h3 : e3 j = e4 j) :
    w0 (e0 (Value.ix4_0 j)) * x (e2 j) + w1 (e1 (Value.ix4_2 j)) * xa (e3 j) = Cert.Fuse.colFused w0 w1 x xa (e4 j) := by
  rw [h0, h1, h2, h3]
  rfl

/-- The five index maps over the 40 grid points: every window is at the output's block of rows, in block column 0. -/
theorem block_rows : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = win0_4.index t (0 : Fin 2) ∧ win0_2.index t (1 : Fin 2) = 0
    ∧ win0_3.index t (0 : Fin 2) = win0_4.index t (0 : Fin 2) ∧ win0_3.index t (1 : Fin 2) = 0
    ∧ win0_4.index t (1 : Fin 2) = 0 ∧ win0_4.index t (0 : Fin 2) ≤ 39 :=
  (by decide +kernel : ∀ t : Fin grid0.N, _)

/-- Every one of the 40 blocks of rows is some point's. -/
theorem block_onto : ∀ b : Fin 40, ∃ t : Fin cfg0.N, win0_4.index t = ![b.val, 0] :=
  (by decide +kernel : ∀ b : Fin 40, ∃ t : Fin grid0.N, win0_4.index t = ![b.val, 0])

/-- One grid point, with the four arrays it reads as variables: from their blocks at the point the body leaves, in
    the output block, the block of the weighted sum of the arrays. -/
theorem point_eq (A0 A1 : S200000x1.Idx → EReal) (A2 A3 : S200000x256.Idx → EReal) (t : Fin cfg0.N) :
    (cfg0.win 4).cut (grid0.coords t) (out0_4 (((cfg0.win 0).blk t).view.read (Elt Ideal) A0) (((cfg0.win 1).blk t).view.read (Elt Ideal) A1) (((cfg0.win 2).blk t).view.read (Elt Ideal) A2) (((cfg0.win 3).blk t).view.read (Elt Ideal) A3))
      = ((cfg0.win 4).blk t).view.read (Elt Ideal) (Cert.Fuse.colFused A0 A1 A2 A3) := by
  obtain ⟨e0, e1, e2, e3, e4, e5, e6, e7, e8, -⟩ := block_rows t
  funext j
  refine (out_at (((cfg0.win 0).blk t).view.read (Elt Ideal) A0) (((cfg0.win 1).blk t).view.read (Elt Ideal) A1) (((cfg0.win 2).blk t).view.read (Elt Ideal) A2) (((cfg0.win 3).blk t).view.read (Elt Ideal) A3) j).trans ?_
  have hj0 : (j 0).val < 5000 := (j 0).isLt
  have hj1 : (j 1).val < 256 := (j 1).isLt
  have h0 : ((cfg0.win 0).blk t).view.emb (Value.ix4_0 j) = ix2 (Cert.Fuse.row (((cfg0.win 4).blk t).view.emb j)) (0 : Fin 1) := by
    funext a; apply Fin.ext
    match a with
    | ⟨0, _⟩ => show win0_0.index t (0 : Fin 2) * 5000 + 1 * (j 0).val = win0_4.index t (0 : Fin 2) * 5000 + 1 * (j 0).val; omega
    | ⟨1, _⟩ => show win0_0.index t (1 : Fin 2) * 1 + 1 * 0 = 0; omega
  have h1 : ((cfg0.win 1).blk t).view.emb (Value.ix4_2 j) = ix2 (Cert.Fuse.row (((cfg0.win 4).blk t).view.emb j)) (0 : Fin 1) := by
    funext a; apply Fin.ext
    match a with
    | ⟨0, _⟩ => show win0_1.index t (0 : Fin 2) * 5000 + 1 * (j 0).val = win0_4.index t (0 : Fin 2) * 5000 + 1 * (j 0).val; omega
    | ⟨1, _⟩ => show win0_1.index t (1 : Fin 2) * 1 + 1 * 0 = 0; omega
  have h2 : ((cfg0.win 2).blk t).view.emb j = ((cfg0.win 4).blk t).view.emb j := by
    funext a; apply Fin.ext
    match a with
    | ⟨0, _⟩ => show win0_2.index t (0 : Fin 2) * 5000 + 1 * (j 0).val = win0_4.index t (0 : Fin 2) * 5000 + 1 * (j 0).val; omega
    | ⟨1, _⟩ => show win0_2.index t (1 : Fin 2) * 256 + 1 * (j 1).val = win0_4.index t (1 : Fin 2) * 256 + 1 * (j 1).val; omega
  have h3 : ((cfg0.win 3).blk t).view.emb j = ((cfg0.win 4).blk t).view.emb j := by
    funext a; apply Fin.ext
    match a with
    | ⟨0, _⟩ => show win0_3.index t (0 : Fin 2) * 5000 + 1 * (j 0).val = win0_4.index t (0 : Fin 2) * 5000 + 1 * (j 0).val; omega
    | ⟨1, _⟩ => show win0_3.index t (1 : Fin 2) * 256 + 1 * (j 1).val = win0_4.index t (1 : Fin 2) * 256 + 1 * (j 1).val; omega
  exact block_eq A0 A1 A2 A3
    ((cfg0.win 0).blk t).view.emb ((cfg0.win 1).blk t).view.emb ((cfg0.win 2).blk t).view.emb ((cfg0.win 3).blk t).view.emb
    ((cfg0.win 4).blk t).view.emb j h0 h1 h2 h3

/-- What point `t` writes back is block `t` of the weighted sum over the arrays as the region finds them. -/
theorem flushed_eq (c : Dev nD) (t : Fin cfg0.N) :
    (dats m 0 c).flushed 4 t = ((cfg0.win 4).blk t).view.read (Elt Ideal)
      (Cert.Fuse.colFused (V m c (Pipeline.arrRef spec0 0)) (V m c (Pipeline.arrRef spec0 1))
        (V m c (Pipeline.arrRef spec0 2)) (V m c (Pipeline.arrRef spec0 3))) := by
  show (cfg0.win 4).cut (grid0.coords t) ((dats m 0 c).after 4 t) = _
  rw [after0_4]
  unfold iblk
  exact point_eq _ _ _ _ t

/-- An index of the output array lies in point `t`'s block iff each coordinate lies in the block's range. -/
theorem mem_block (t : Fin cfg0.N) (i : S200000x256.Idx) :
    i ∈ ((cfg0.win 4).blk t).view.set ↔ ∀ a : Fin 2, win0_4.index t a * S5000x256.size a ≤ (i a).val ∧ (i a).val < win0_4.index t a * S5000x256.size a + S5000x256.size a := by
  show i ∈ ((View.whole main_v69).slice (win0_4.rect t)).set ↔ _
  rw [View.set_slice_whole, Rect.mem_set_unit]
  exact Iff.rfl

/-- The 40 blocks of 5000 rows tile the 200000 rows: row `r` is in the block of the point at block row `r / 5000`. -/
theorem covered (i : S200000x256.Idx) :
    ∃ t : Fin cfg0.N, (cfg0.win 4).flush t = true ∧ i ∈ ((cfg0.win 4).blk t).view.set := by
  have hi0 : (i 0).val < 200000 := (i 0).isLt
  have hi1 : (i 1).val < 256 := (i 1).isLt
  obtain ⟨t, ht⟩ := block_onto ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_block]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 256 ≤ (i 1).val ∧ (i 1).val < win0_4.index t (1 : Fin 2) * 256 + 256; omega

/-- The output array after the region: the weighted sum over the weight columns and feature arrays the region found. -/
theorem final (c : Dev nD) :
    (dats m 0 c).arrAt 4 cfg0.N
      = Cert.Fuse.colFused (V m c main_v60) (V m c main_v68) (V m c main_arg0) (V m c main_arg1) :=
  (dats m 0 c).arrAt_eq_of_cover 4 _ (fun t _ => flushed_eq m c t) covered

end Cert.Fuse.Kernel

end
-- ==== Proof.HostSide.lean ====
/-
  The kernel's program, before it launches its one region, computes on the host the same per-graph statistics as the
  reference: the node count of each of the 512 graphs (a scatter-add of ones along the graph ids), the count of edges
  whose two endpoints lie in the same graph (two gathers of graph ids along the edge list, a comparison, a scatter-add),
  from them `scale = log (n + 1) / log 501` and `density = e / (n (n - 1) + 1e-8)`, the global weight
  `wg = 1 / (1 + exp (-(alpha · scale + beta · density + gamma)))` and the local weight `wl = 1 - wg`, and finally each
  node's two weights by a gather along its graph id, cast to one column.

  The reference does the same operations on the same operands in a slightly different order (it normalises the first
  row of the edge list before it slices the second). Order does not matter to what a buffer holds, so each of these
  host buffers of the kernel's program holds, as a term of the arguments, exactly the reference's stage of the same
  name: the chain is never opened, only compared operation by operation.
-/
import proofs.«141034_j18631568130348_1_alg».proof.Proof.Gen.KernelIdeal.Frame
import proofs.«141034_j18631568130348_1_alg».proof.Proof.Gen.ReferenceIdeal.Read

noncomputable section

namespace Cert.Fuse.Host

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- The global weights `wg` of the 512 graphs, as the region finds them: the reference's stage. -/
theorem global_weights (c : Dev nD) :
    V m c main_v50 = Cert.ReferenceIdeal.Read.val_main_v50 (F := F) (m ((c : Thread nD τ).loc main_arg2)) (m ((c : Thread nD τ).loc main_arg3)) (m ((c : Thread nD τ).loc main_arg4)) (m ((c : Thread nD τ).loc main_arg5)) (m ((c : Thread nD τ).loc main_arg6)) := by
  dsimp only [V, hostOps0]
  after_results_simp
  rfl

/-- The local weights `wl = 1 - wg`, as the region finds them: the reference's stage. -/
theorem local_weights (c : Dev nD) :
    V m c main_v52 = Cert.ReferenceIdeal.Read.val_main_v52 (F := F) (m ((c : Thread nD τ).loc main_arg2)) (m ((c : Thread nD τ).loc main_arg3)) (m ((c : Thread nD τ).loc main_arg4)) (m ((c : Thread nD τ).loc main_arg5)) (m ((c : Thread nD τ).loc main_arg6)) := by
  dsimp only [V, hostOps0]
  after_results_simp
  rfl

set_option maxHeartbeats 8000000 in
/-- Each node's local weight as a column [200000, 1]: the cast of the reference's gathered vector. -/
theorem local_column (c : Dev nD) :
    V m c main_v60 = shapeCast S200000x1 (Cert.ReferenceIdeal.Read.val_main_v59 (F := F) (m ((c : Thread nD τ).loc main_arg2)) (m ((c : Thread nD τ).loc main_arg3)) (m ((c : Thread nD τ).loc main_arg4)) (m ((c : Thread nD τ).loc main_arg5)) (m ((c : Thread nD τ).loc main_arg6))) shapeCasts_S200000_S200000x1 := by
  dsimp only [V, hostOps0]
  after_results_simp
  rfl

set_option maxHeartbeats 8000000 in
/-- Each node's global weight as a column [200000, 1]: the cast of the reference's gathered vector. -/
theorem global_column (c : Dev nD) :
    V m c main_v68 = shapeCast S200000x1 (Cert.ReferenceIdeal.Read.val_main_v69 (F := F) (m ((c : Thread nD τ).loc main_arg2)) (m ((c : Thread nD τ).loc main_arg3)) (m ((c : Thread nD τ).loc main_arg4)) (m ((c : Thread nD τ).loc main_arg5)) (m ((c : Thread nD τ).loc main_arg6))) shapeCasts_S200000_S200000x1 := by
  dsimp only [V, hostOps0]
  after_results_simp
  rfl

end Cert.Fuse.Host

end
-- ==== Proof.KernelRun.lean ====
/-
  The kernel's whole run, read as values of the arguments.

  The region's output array holds the weighted sum over the weight columns the host prefix prepared; those columns are
  the casts of the reference's two gathered weight vectors, so the output is the specification's `fused` of those
  vectors and the two feature arguments. The two weight vectors of the 512 graphs, which the program also returns,
  are host buffers the region does not touch: they end as the host prefix left them, at the reference's stages.
-/
import proofs.«141034_j18631568130348_1_alg».proof.Proof.KernelValue
import proofs.«141034_j18631568130348_1_alg».proof.Proof.HostSide

noncomputable section

namespace Cert.Fuse.KernelRun

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The output array after the region, as a function of the arguments. -/
theorem result (c : Dev nD) :
    (dats m 0 c).arrAt 4 cfg0.N
      = Cert.Fuse.fused (Cert.ReferenceIdeal.Read.val_main_v59 (F := Ideal) (m ((c : Thread nD τ).loc main_arg2)) (m ((c : Thread nD τ).loc main_arg3)) (m ((c : Thread nD τ).loc main_arg4)) (m ((c : Thread nD τ).loc main_arg5)) (m ((c : Thread nD τ).loc main_arg6))) (Cert.ReferenceIdeal.Read.val_main_v69 (F := Ideal) (m ((c : Thread nD τ).loc main_arg2)) (m ((c : Thread nD τ).loc main_arg3)) (m ((c : Thread nD τ).loc main_arg4)) (m ((c : Thread nD τ).loc main_arg5)) (m ((c : Thread nD τ).loc main_arg6)))
          (m ((c : Thread nD τ).loc main_arg0)) (m ((c : Thread nD τ).loc main_arg1)) := by
  rw [Cert.Fuse.Kernel.final m c, Cert.Fuse.Host.local_column m c, Cert.Fuse.Host.global_column m c, V_main_arg0 m c, V_main_arg1 m c]
  exact Cert.Fuse.colFused_column _ _ _ _ _ _

/-- Every weakly fair execution of the kernel's program terminates with the fused features, the local and the global
    weights at these values of the arguments, and the arguments unchanged. -/
theorem run : θ_run defs (onTc (τ := τ) (main (F := Ideal))) ⟨m, fun _ => 0, ρ⟩ fun r => ∀ c : Dev nD,
      r.2.mem ((c : Thread nD τ).loc main_v69)
        = Cert.Fuse.fused (Cert.ReferenceIdeal.Read.val_main_v59 (F := Ideal) (m ((c : Thread nD τ).loc main_arg2)) (m ((c : Thread nD τ).loc main_arg3)) (m ((c : Thread nD τ).loc main_arg4)) (m ((c : Thread nD τ).loc main_arg5)) (m ((c : Thread nD τ).loc main_arg6))) (Cert.ReferenceIdeal.Read.val_main_v69 (F := Ideal) (m ((c : Thread nD τ).loc main_arg2)) (m ((c : Thread nD τ).loc main_arg3)) (m ((c : Thread nD τ).loc main_arg4)) (m ((c : Thread nD τ).loc main_arg5)) (m ((c : Thread nD τ).loc main_arg6)))
            (m ((c : Thread nD τ).loc main_arg0)) (m ((c : Thread nD τ).loc main_arg1))
      ∧ r.2.mem ((c : Thread nD τ).loc main_v52) = Cert.ReferenceIdeal.Read.val_main_v52 (F := Ideal) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v50) = Cert.ReferenceIdeal.Read.val_main_v50 (F := Ideal) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(Value.post4 m r h c).trans (result m c),
      ((h c).2 main_v52 (Pipeline.mem_restRefs_of main_v52 (by decide) (by decide))).trans (Cert.Fuse.Host.local_weights m c),
      ((h c).2 main_v50 (Pipeline.mem_restRefs_of main_v50 (by decide) (by decide))).trans (Cert.Fuse.Host.global_weights m c),
      Value.kept_main_arg0 m r h c,
      Value.kept_main_arg1 m r h c,
      Value.kept_main_arg2 m r h c,
      Value.kept_main_arg3 m r h c,
      Value.kept_main_arg4 m r h c,
      Value.kept_main_arg5 m r h c,
      Value.kept_main_arg6 m r h c⟩)
    (run_main m ρ)

end Cert.Fuse.KernelRun

end
-- ==== Proof.lean ====
/-
  A weighted fusion of two node-feature arrays.

  Both programs compute, for 200000 nodes in 512 graphs: each graph's node count `n` and same-graph edge count `e`,
  `scale = log (n + 1) / log 501`, `density = e / (n (n - 1) + 1e-8)`, the global weight
  `wg = 1 / (1 + exp (-(alpha · scale + beta · density + gamma)))`, the local weight `wl = 1 - wg`, and the fused
  features `wl[batch p] · x_ggnn (p, q) + wg[batch p] · x_appnp (p, q)`. They return the fused features and the two
  weight vectors.

  The kernel's program does the statistics and the two per-node gathers on the host exactly as the reference does
  (the same operations on the same operands: `Proof/HostSide.lean`), then lets a 40-point region form the weighted sum
  block of rows by block of rows (`Proof/KernelValue.lean`), where the reference forms it by two broadcasts, two
  products and a sum over the whole arrays (`Proof/RefRead.lean`). Both are the one function `fused` of
  `Proof/Spec.lean` of the same gathered weights, so the results agree entry by entry on the extended reals; finiteness
  of the inputs is never used. The idealisation rewrote nothing, so `preserves` is trivial.
-/
import proofs.«141034_j18631568130348_1_alg».proof.Defs
import proofs.«141034_j18631568130348_1_alg».proof.Proof.Gen.Kernel
import proofs.«141034_j18631568130348_1_alg».proof.Proof.Gen.Kernel.Skeleton
import proofs.«141034_j18631568130348_1_alg».proof.Proof.Gen.Kernel.Launch
import proofs.«141034_j18631568130348_1_alg».proof.Proof.Gen.Kernel.Points
import proofs.«141034_j18631568130348_1_alg».proof.Proof.Gen.Kernel.Frame
import proofs.«141034_j18631568130348_1_alg».proof.Proof.Gen.KernelIdeal
import proofs.«141034_j18631568130348_1_alg».proof.Proof.Gen.KernelIdeal.Skeleton
import proofs.«141034_j18631568130348_1_alg».proof.Proof.Gen.KernelIdeal.Launch
import proofs.«141034_j18631568130348_1_alg».proof.Proof.Gen.KernelIdeal.Points
import proofs.«141034_j18631568130348_1_alg».proof.Proof.Gen.KernelIdeal.Frame
import proofs.«141034_j18631568130348_1_alg».proof.Proof.Gen.ReferenceIdeal
import proofs.«141034_j18631568130348_1_alg».proof.Proof.Gen.Pre_finite_inputs
import proofs.«141034_j18631568130348_1_alg».proof.Proof.Gen.KernelIdeal.Value
import proofs.«141034_j18631568130348_1_alg».proof.Proof.Gen.ReferenceIdeal.Run
import proofs.«141034_j18631568130348_1_alg».proof.Proof.Gen.ReferenceIdeal.Read
import proofs.«141034_j18631568130348_1_alg».proof.Proof.Spec
import proofs.«141034_j18631568130348_1_alg».proof.Proof.RefRead
import proofs.«141034_j18631568130348_1_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no region: its frame is its run with the results dropped. -/
theorem frame_reference_ideal : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- From memories that agree on the arguments the two programs end with equal results: the fused features are the
    weighted sum `fused` of the same two gathered weight vectors and the same feature arrays, and the two weight
    vectors of the graphs are the same stages of the same arguments. -/
theorem algebraic : Cert.algebraic_KernelIdeal_ReferenceIdeal := by
  intro m ρ m' ρ' _ hagree
  refine ⟨_, _, _, Cert.Fuse.KernelRun.run m ρ, ?_⟩
  refine (θ_run Cert.ReferenceIdeal.defs _ _).mono (fun _ h c => ⟨?_, ?_, ?_, (h c).2.2.2⟩)
    (Cert.ReferenceIdeal.Value.run (F := Ideal) m' ρ')
  · rw [(h c).1, Cert.ReferenceIdeal.Read.val_main_v73_eq, Cert.Fuse.Ref.fused_eq,
      (hagree c).1, (hagree c).2.1, (hagree c).2.2.1, (hagree c).2.2.2.1, (hagree c).2.2.2.2.1, (hagree c).2.2.2.2.2.1,
      (hagree c).2.2.2.2.2.2]
  · rw [(h c).2.1, Cert.ReferenceIdeal.Read.val_main_v52_eq,
      (hagree c).2.2.1, (hagree c).2.2.2.1, (hagree c).2.2.2.2.1, (hagree c).2.2.2.2.2.1, (hagree c).2.2.2.2.2.2]
  · rw [(h c).2.2.1, Cert.ReferenceIdeal.Read.val_main_v50_eq,
      (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
